-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76_1)) (v1 : (c : Dev Cert.KernelIdeal.nD) → Buf (Elt Ideal) ((c.tc : Thread Cert.KernelIdeal.nD Cert.KernelIdeal.τ).loc Cert.KernelIdeal.main_v76_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_1) = v0 c
          ∧ r.2.mem ((c.tc : Thread Cert.KernelIdeal.nD Cert.KernelIdeal.τ).loc Cert.KernelIdeal.main_v76_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 107
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x128, .f32⟩
  | .hbm, ⟨96, _⟩ => ⟨S850000x1, .f32⟩
  | .hbm, ⟨97, _⟩ => ⟨S850000x128, .f32⟩
  | .hbm, ⟨98, _⟩ => ⟨S850000x128, .f32⟩
  | .hbm, ⟨99, _⟩ => ⟨S_, .f32⟩
  | .hbm, ⟨100, _⟩ => ⟨S50000x128, .f32⟩
  | .hbm, ⟨101, _⟩ => ⟨S850000x1, .i32⟩
  | .hbm, ⟨102, _⟩ => ⟨S50000x128, .f32⟩
  | .hbm, ⟨103, _⟩ => ⟨S1x128, .f32⟩
  | .hbm, ⟨104, _⟩ => ⟨S1x40, .f32⟩
  | .hbm, ⟨105, _⟩ => ⟨S50000x128, .f32⟩
  | .hbm, ⟨106, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S128x40, .f32⟩
  | .local _ .vmem, ⟨21, _⟩ => ⟨S1x40, .f32⟩
  | .local _ .vmem, ⟨22, _⟩ => ⟨S5000x128, .f32⟩
  | .local _ .vmem, ⟨23, _⟩ => ⟨S5000x128, .f32⟩
  | .local _ .vmem, ⟨24, _⟩ => ⟨S5000x40, .f32⟩
  | .local _ .vmem, ⟨25, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76_0 : Ref sig .tc := ⟨.hbm, 105, rfl⟩
abbrev main_v76_1 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x40.size a ≤ S128x40.size a
  hwx3_2 : ∀ i : grid3.Coords, EltTy.bits .f32 = 32 ∨ (Rect.block (s := S128x40) S128x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x40.size a ≤ S50000x40.size a
  hwx3_5 : ∀ i : grid3.Coords, EltTy.bits .f32 = 32 ∨ (Rect.block (s := S50000x40) S5000x40.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v76_1) S5000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x1, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x128, .f32⟩
  | .hbm, ⟨106, _⟩ => ⟨S850000x1, .f32⟩
  | .hbm, ⟨107, _⟩ => ⟨S850000x128, .f32⟩
  | .hbm, ⟨108, _⟩ => ⟨S850000x128, .f32⟩
  | .hbm, ⟨109, _⟩ => ⟨S_, .f32⟩
  | .hbm, ⟨110, _⟩ => ⟨S50000x128, .f32⟩
  | .hbm, ⟨111, _⟩ => ⟨S850000x1, .i32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S_, .f32⟩
  | .hbm, ⟨117, _⟩ => ⟨S50000x128, .f32⟩
  | .hbm, ⟨118, _⟩ => ⟨S50000x128, .f32⟩
  | .hbm, ⟨119, _⟩ => ⟨S50000x40, .f32⟩
  | .hbm, ⟨120, _⟩ => ⟨S1x40, .f32⟩
  | .hbm, ⟨121, _⟩ => ⟨S50000x40, .f32⟩
  | .hbm, ⟨122, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel program's run with every unscoped buffer named: every weakly fair execution of @main terminates,
  nothing faulting, and each buffer of the final memory holds what the last segment boundary's contents hold there —
  the fold of the host stretches and of the four pallas_calls' write-backs over the launch memory.
-/
import proofs.«138004_j8701603741741_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch theorem for a program of several regions among host stretches, applied to @main's segments, with the
    last thread state read against the final memory at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.Hand

end
-- ==== Proof.HostChain.lean ====
/-
  The host stretches of the idealized kernel program, read at the buffers the pallas_calls and the later stretches
  take: the source and destination index arrays and the edge norms (computed once, before the first call, from the
  edge list alone) are the reference's; no later stretch and no call writes them or an argument; and each stretch
  between two calls applies to the preceding call's result the reference's own gather, scaling and scatter-add.
-/
import proofs.«138004_j8701603741741_1_alg».proof.Proof.Gen.KernelIdeal.Frame
import proofs.«138004_j8701603741741_1_alg».proof.Proof.RefRead
import Idealize.ShloMosaic.Lib.StableHlo.Run
import Idealize.ShloMosaic.Lib.ValueLayout

set_option maxRecDepth 16384

noncomputable section

namespace Cert.KernelIdeal.Hand

open Cert.KernelIdeal Cert.KernelIdeal.Gen Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## What is never written again

`Wk m ρ c` is the memory at @main's k-th segment boundary: `W0` at the launch, `W3`, `W5`, `W7`, `W9` where the four calls
are entered, `W4`, `W6`, `W8`, `W10` where they are left. `keep_b_k_j` says buffer `b` holds at boundary `k` what it held
at boundary `j`: a host stretch keeps every buffer none of its operations writes, a call every buffer that is not one
of its arrays. -/

/-- No operation of a literal line of host operations writes the buffer at hand: each operation writes one
    reference, and that reference is a different one. -/
macro "not_written_by " ops:ident : tactic =>
  `(tactic| (refine List.forall_iff_forall_mem.mp ?_
             simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

theorem keep_arg0_3_0 : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (by not_written_by hostOps0_2)
    _ = W1 m ρ c (Proc.devRef .tc main_arg0) := StableHlo.after_of_forall_not_mem (b := Proc.devRef .tc main_arg0) _ _ (by not_written_by hostOps0_1)
    _ = W0 m ρ c (Proc.devRef .tc main_arg0) := StableHlo.after_of_forall_not_mem (b := Proc.devRef .tc main_arg0) _ _ (by not_written_by hostOps0)

theorem keep_arg2_3_0 : W3 m ρ c (Proc.devRef .tc main_arg2) = W0 m ρ c (Proc.devRef .tc main_arg2) :=
  calc W3 m ρ c (Proc.devRef .tc main_arg2)
    _ = W2 m ρ c (Proc.devRef .tc main_arg2) := StableHlo.after_of_forall_not_mem (b := Proc.devRef .tc main_arg2) _ _ (by not_written_by hostOps0_2)
    _ = W1 m ρ c (Proc.devRef .tc main_arg2) := StableHlo.after_of_forall_not_mem (b := Proc.devRef .tc main_arg2) _ _ (by not_written_by hostOps0_1)
    _ = W0 m ρ c (Proc.devRef .tc main_arg2) := StableHlo.after_of_forall_not_mem (b := Proc.devRef .tc main_arg2) _ _ (by not_written_by hostOps0)

theorem keep_arg3_4_0 : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (by not_written_by hostOps0_2)
    _ = W1 m ρ c (Proc.devRef .tc main_arg3) := StableHlo.after_of_forall_not_mem (b := Proc.devRef .tc main_arg3) _ _ (by not_written_by hostOps0_1)
    _ = W0 m ρ c (Proc.devRef .tc main_arg3) := StableHlo.after_of_forall_not_mem (b := Proc.devRef .tc main_arg3) _ _ (by not_written_by hostOps0)

theorem keep_arg4_5_0 : W5 m ρ c (Proc.devRef .tc main_arg4) = W0 m ρ c (Proc.devRef .tc main_arg4) :=
  calc W5 m ρ c (Proc.devRef .tc main_arg4)
    _ = W4 m ρ c (Proc.devRef .tc main_arg4) := StableHlo.after_of_forall_not_mem (b := Proc.devRef .tc main_arg4) _ _ (by not_written_by hostOps1)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (by not_written_by hostOps0_2)
    _ = W1 m ρ c (Proc.devRef .tc main_arg4) := StableHlo.after_of_forall_not_mem (b := Proc.devRef .tc main_arg4) _ _ (by not_written_by hostOps0_1)
    _ = W0 m ρ c (Proc.devRef .tc main_arg4) := StableHlo.after_of_forall_not_mem (b := Proc.devRef .tc main_arg4) _ _ (by not_written_by hostOps0)

theorem keep_arg5_6_0 : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (by not_written_by hostOps1)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by not_written_by hostOps0_2)
    _ = W1 m ρ c (Proc.devRef .tc main_arg5) := StableHlo.after_of_forall_not_mem (b := Proc.devRef .tc main_arg5) _ _ (by not_written_by hostOps0_1)
    _ = W0 m ρ c (Proc.devRef .tc main_arg5) := StableHlo.after_of_forall_not_mem (b := Proc.devRef .tc main_arg5) _ _ (by not_written_by hostOps0)

theorem keep_arg6_7_0 : W7 m ρ c (Proc.devRef .tc main_arg6) = W0 m ρ c (Proc.devRef .tc main_arg6) :=
  calc W7 m ρ c (Proc.devRef .tc main_arg6)
    _ = W6 m ρ c (Proc.devRef .tc main_arg6) := StableHlo.after_of_forall_not_mem (b := Proc.devRef .tc main_arg6) _ _ (by not_written_by hostOps2)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (by not_written_by hostOps1)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by not_written_by hostOps0_2)
    _ = W1 m ρ c (Proc.devRef .tc main_arg6) := StableHlo.after_of_forall_not_mem (b := Proc.devRef .tc main_arg6) _ _ (by not_written_by hostOps0_1)
    _ = W0 m ρ c (Proc.devRef .tc main_arg6) := StableHlo.after_of_forall_not_mem (b := Proc.devRef .tc main_arg6) _ _ (by not_written_by hostOps0)

theorem keep_arg7_8_0 : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (by not_written_by hostOps2)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (by not_written_by hostOps1)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (by not_written_by hostOps0_2)
    _ = W1 m ρ c (Proc.devRef .tc main_arg7) := StableHlo.after_of_forall_not_mem (b := Proc.devRef .tc main_arg7) _ _ (by not_written_by hostOps0_1)
    _ = W0 m ρ c (Proc.devRef .tc main_arg7) := StableHlo.after_of_forall_not_mem (b := Proc.devRef .tc main_arg7) _ _ (by not_written_by hostOps0)

theorem keep_arg9_8_0 : W8 m ρ c (Proc.devRef .tc main_arg9) = W0 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (by not_written_by hostOps2)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (by not_written_by hostOps1)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (by not_written_by hostOps0_2)
    _ = W1 m ρ c (Proc.devRef .tc main_arg9) := StableHlo.after_of_forall_not_mem (b := Proc.devRef .tc main_arg9) _ _ (by not_written_by hostOps0_1)
    _ = W0 m ρ c (Proc.devRef .tc main_arg9) := StableHlo.after_of_forall_not_mem (b := Proc.devRef .tc main_arg9) _ _ (by not_written_by hostOps0)

theorem keep_arg8_9_0 : W9 m ρ c (Proc.devRef .tc main_arg8) = W0 m ρ c (Proc.devRef .tc main_arg8) :=
  calc W9 m ρ c (Proc.devRef .tc main_arg8)
    _ = W8 m ρ c (Proc.devRef .tc main_arg8) := StableHlo.after_of_forall_not_mem (b := Proc.devRef .tc main_arg8) _ _ (by not_written_by hostOps3)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (by not_written_by hostOps2)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (by not_written_by hostOps1)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (by not_written_by hostOps0_2)
    _ = W1 m ρ c (Proc.devRef .tc main_arg8) := StableHlo.after_of_forall_not_mem (b := Proc.devRef .tc main_arg8) _ _ (by not_written_by hostOps0_1)
    _ = W0 m ρ c (Proc.devRef .tc main_arg8) := StableHlo.after_of_forall_not_mem (b := Proc.devRef .tc main_arg8) _ _ (by not_written_by hostOps0)

theorem keep_v3_4_3 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_v6_4_3 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_v29_4_3 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem keep_v3_6_3 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (by not_written_by hostOps1)
    _ = W3 m ρ c (Proc.devRef .tc main_v3) := W4_of_ne m ρ c main_v3 (by decide)

theorem keep_v6_6_3 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (by not_written_by hostOps1)
    _ = W3 m ρ c (Proc.devRef .tc main_v6) := W4_of_ne m ρ c main_v6 (by decide)

theorem keep_v29_6_3 : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := StableHlo.after_of_forall_not_mem (b := Proc.devRef .tc main_v29) _ _ (by not_written_by hostOps1)
    _ = W3 m ρ c (Proc.devRef .tc main_v29) := W4_of_ne m ρ c main_v29 (by decide)

theorem keep_v3_8_3 : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (by not_written_by hostOps2)
    _ = W5 m ρ c (Proc.devRef .tc main_v3) := W6_of_ne m ρ c main_v3 (by decide)
    _ = W4 m ρ c (Proc.devRef .tc main_v3) := StableHlo.after_of_forall_not_mem (b := Proc.devRef .tc main_v3) _ _ (by not_written_by hostOps1)
    _ = W3 m ρ c (Proc.devRef .tc main_v3) := W4_of_ne m ρ c main_v3 (by decide)

theorem keep_v6_8_3 : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem (b := Proc.devRef .tc main_v6) _ _ (by not_written_by hostOps2)
    _ = W5 m ρ c (Proc.devRef .tc main_v6) := W6_of_ne m ρ c main_v6 (by decide)
    _ = W4 m ρ c (Proc.devRef .tc main_v6) := StableHlo.after_of_forall_not_mem (b := Proc.devRef .tc main_v6) _ _ (by not_written_by hostOps1)
    _ = W3 m ρ c (Proc.devRef .tc main_v6) := W4_of_ne m ρ c main_v6 (by decide)

theorem keep_v29_8_3 : W8 m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := StableHlo.after_of_forall_not_mem (b := Proc.devRef .tc main_v29) _ _ (by not_written_by hostOps2)
    _ = W5 m ρ c (Proc.devRef .tc main_v29) := W6_of_ne m ρ c main_v29 (by decide)
    _ = W4 m ρ c (Proc.devRef .tc main_v29) := StableHlo.after_of_forall_not_mem (b := Proc.devRef .tc main_v29) _ _ (by not_written_by hostOps1)
    _ = W3 m ρ c (Proc.devRef .tc main_v29) := W4_of_ne m ρ c main_v29 (by decide)

/-! ## The index arrays and the norms -/

set_option maxHeartbeats 4000000 in
/-- After the first stretch: the source indices — the edge list's first row, then one self-loop per node. -/
theorem s1_v3 : W1 m ρ c (Proc.devRef .tc main_v3) = val_main_v3 (F := Ideal) (m ((c : Thread nD τ).loc main_arg1)) := by
  show StableHlo.after hostOps0 (W0 m ρ c) (Proc.devRef .tc main_v3) = _
  simp only [hostOps0]
  after_results_simp
  rfl

set_option maxHeartbeats 4000000 in
/-- After the first stretch: the destination indices — the edge list's second row, then one self-loop per node. -/
theorem s1_v6 : W1 m ρ c (Proc.devRef .tc main_v6) = val_main_v6 (F := Ideal) (m ((c : Thread nD τ).loc main_arg1)) := by
  show StableHlo.after hostOps0 (W0 m ρ c) (Proc.devRef .tc main_v6) = _
  simp only [hostOps0]
  after_results_simp
  rfl

set_option maxHeartbeats 4000000 in
/-- Which nodes have a positive degree. -/
theorem s1_v12 : W1 m ρ c (Proc.devRef .tc main_v12) = val_main_v12 (F := Ideal) (m ((c : Thread nD τ).loc main_arg1)) := by
  show StableHlo.after hostOps0 (W0 m ρ c) (Proc.devRef .tc main_v12) = _
  simp only [hostOps0]
  after_results_simp
  rfl

set_option maxHeartbeats 4000000 in
/-- The inverse square roots of the degrees. -/
theorem s1_v13 : W1 m ρ c (Proc.devRef .tc main_v13) = val_main_v13 (F := Ideal) (m ((c : Thread nD τ).loc main_arg1)) := by
  show StableHlo.after hostOps0 (W0 m ρ c) (Proc.devRef .tc main_v13) = _
  simp only [hostOps0]
  after_results_simp
  rfl

set_option maxHeartbeats 4000000 in
/-- The zero that replaces the inverse square root at a node of degree zero. -/
theorem s1_cst_2 : W1 m ρ c (Proc.devRef .tc main_cst_2) = val_main_cst_2 (F := Ideal) := by
  show StableHlo.after hostOps0 (W0 m ρ c) (Proc.devRef .tc main_cst_2) = _
  simp only [hostOps0]
  after_results_simp
  rfl

/-- After the `where`: the inverse square root of a positive degree, zero otherwise. -/
theorem s2_v14 : W2 m ρ c (Proc.devRef .tc main_v14) = val_main_v14 (F := Ideal) (m ((c : Thread nD τ).loc main_arg1)) := by
  have h12 := s1_v12 m ρ c
  have h13 := s1_v13 m ρ c
  have hc2 := s1_cst_2 m ρ c
  show StableHlo.after hostOps0_1 (W1 m ρ c) (Proc.devRef .tc main_v14) = _
  generalize W1 m ρ c = U at h12 h13 hc2 ⊢
  simp only [hostOps0_1]
  after_results_simp
  show select (U (Proc.devRef .tc main_v12)) (U (Proc.devRef .tc main_v13))
      (broadcastInDim S50000 ![] bcast_S_S50000 (id (U (Proc.devRef .tc main_cst_2)))) = _
  rw [h12, h13, hc2]
  rfl

theorem s2_v3 : W2 m ρ c (Proc.devRef .tc main_v3) = val_main_v3 (F := Ideal) (m ((c : Thread nD τ).loc main_arg1)) :=
  (StableHlo.after_of_forall_not_mem (b := Proc.devRef .tc main_v3) _ _ (by not_written_by hostOps0_1)).trans (s1_v3 m ρ c)

theorem s2_v6 : W2 m ρ c (Proc.devRef .tc main_v6) = val_main_v6 (F := Ideal) (m ((c : Thread nD τ).loc main_arg1)) :=
  (StableHlo.after_of_forall_not_mem (b := Proc.devRef .tc main_v6) _ _ (by not_written_by hostOps0_1)).trans (s1_v6 m ρ c)

/-- The source indices when the first call is entered. -/
theorem pre_v3 : W3 m ρ c (Proc.devRef .tc main_v3) = val_main_v3 (F := Ideal) (m ((c : Thread nD τ).loc main_arg1)) :=
  (StableHlo.after_of_forall_not_mem (b := Proc.devRef .tc main_v3) _ _ (by not_written_by hostOps0_2)).trans (s2_v3 m ρ c)

/-- The destination indices when the first call is entered. -/
theorem pre_v6 : W3 m ρ c (Proc.devRef .tc main_v6) = val_main_v6 (F := Ideal) (m ((c : Thread nD τ).loc main_arg1)) :=
  (StableHlo.after_of_forall_not_mem (b := Proc.devRef .tc main_v6) _ _ (by not_written_by hostOps0_2)).trans (s2_v6 m ρ c)

set_option maxHeartbeats 4000000 in
/-- The edge norms: the inverse square roots of the two end nodes' degrees, multiplied. -/
theorem pre_v29 : W3 m ρ c (Proc.devRef .tc main_v29) = val_main_v29 (F := Ideal) (m ((c : Thread nD τ).loc main_arg1)) := by
  have h14 := s2_v14 m ρ c
  have h3 := s2_v3 m ρ c
  have h6 := s2_v6 m ρ c
  show StableHlo.after hostOps0_2 (W2 m ρ c) (Proc.devRef .tc main_v29) = _
  generalize W2 m ρ c = U at h14 h3 h6 ⊢
  simp only [hostOps0_2]
  after_results_simp
  rw [h14, h3, h6]
  rfl

/-! ## The stretches between the calls -/

set_option maxHeartbeats 4000000 in
/-- Host stretch 1: the rows of the product gathered at the edges' sources, scaled by the edge norms and summed
    into the edges' destinations — the same operations on the same index and norm arrays as the reference's. -/
theorem agg1 (hin : W4 m ρ c (Proc.devRef .tc main_v30) = val_main_v30 (F := Ideal) (m ((c : Thread nD τ).loc main_arg0)) (m ((c : Thread nD τ).loc main_arg2))) :
    W5 m ρ c (Proc.devRef .tc main_v43) = val_main_v43 (F := Ideal) (m ((c : Thread nD τ).loc main_arg0)) (m ((c : Thread nD τ).loc main_arg1)) (m ((c : Thread nD τ).loc main_arg2)) := by
  show StableHlo.after hostOps1 (W4 m ρ c) (Proc.devRef .tc main_v43) = _
  simp only [hostOps1]
  after_results_simp
  rw [hin, keep_v3_4_3, keep_v6_4_3, keep_v29_4_3, pre_v3, pre_v6, pre_v29]
  rfl

/-- The bias reshaped to one row reads, at column q, the bias at q. -/
theorem row1 (q : Fin 128) : (W5 m ρ c (Proc.devRef .tc main_v44) : FVec Ideal S1x128 .f32) (ix2 0 q) = (m ((c : Thread nD τ).loc main_arg3)) (ix1 q) := by
  have e : W5 m ρ c (Proc.devRef .tc main_v44) = shapeCast S1x128 (W4 m ρ c (Proc.devRef .tc main_arg3)) shapeCasts_S128_S1x128 := by
    show StableHlo.after hostOps1 (W4 m ρ c) (Proc.devRef .tc main_v44) = _
    simp only [hostOps1]
    after_results_simp
    rfl
  rw [e, keep_arg3_4_0]
  exact shapeCast_a_1a_apply _ _ 0 q

set_option maxHeartbeats 4000000 in
/-- Host stretch 2: the rows of the product gathered at the edges' sources, scaled by the edge norms and summed
    into the edges' destinations — the same operations on the same index and norm arrays as the reference's. -/
theorem agg2 (hin : W6 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    W7 m ρ c (Proc.devRef .tc main_v58) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v58) = _
  simp only [hostOps2]
  after_results_simp
  rw [hin, keep_v3_6_3, keep_v6_6_3, keep_v29_6_3, pre_v3, pre_v6, pre_v29]
  rfl

/-- The bias reshaped to one row reads, at column q, the bias at q. -/
theorem row2 (q : Fin 128) : (W7 m ρ c (Proc.devRef .tc main_v59) : FVec Ideal S1x128 .f32) (ix2 0 q) = (m ((c : Thread nD τ).loc main_arg5)) (ix1 q) := by
  have e : W7 m ρ c (Proc.devRef .tc main_v59) = shapeCast S1x128 (W6 m ρ c (Proc.devRef .tc main_arg5)) shapeCasts_S128_S1x128 := by
    show StableHlo.after hostOps2 (W6 m ρ c) (Proc.devRef .tc main_v59) = _
    simp only [hostOps2]
    after_results_simp
    rfl
  rw [e, keep_arg5_6_0]
  exact shapeCast_a_1a_apply _ _ 0 q

set_option maxHeartbeats 4000000 in
/-- Host stretch 3: the rows of the product gathered at the edges' sources, scaled by the edge norms and summed
    into the edges' destinations — the same operations on the same index and norm arrays as the reference's. -/
theorem agg3 (hin : W8 m ρ c (Proc.devRef .tc main_v60) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W9 m ρ c (Proc.devRef .tc main_v73) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W8 m ρ c) (Proc.devRef .tc main_v73) = _
  simp only [hostOps3]
  after_results_simp
  rw [hin, keep_v3_8_3, keep_v6_8_3, keep_v29_8_3, pre_v3, pre_v6, pre_v29]
  rfl

/-- The bias reshaped to one row reads, at column q, the bias at q. -/
theorem row3 (q : Fin 128) : (W9 m ρ c (Proc.devRef .tc main_v74) : FVec Ideal S1x128 .f32) (ix2 0 q) = (m ((c : Thread nD τ).loc main_arg7)) (ix1 q) := by
  have e : W9 m ρ c (Proc.devRef .tc main_v74) = shapeCast S1x128 (W8 m ρ c (Proc.devRef .tc main_arg7)) shapeCasts_S128_S1x128 := by
    show StableHlo.after hostOps3 (W8 m ρ c) (Proc.devRef .tc main_v74) = _
    simp only [hostOps3]
    after_results_simp
    rfl
  rw [e, keep_arg7_8_0]
  exact shapeCast_a_1a_apply _ _ 0 q

/-- The bias reshaped to one row reads, at column q, the bias at q. -/
theorem rowc (q : Fin 40) : (W9 m ρ c (Proc.devRef .tc main_v75) : FVec Ideal S1x40 .f32) (ix2 0 q) = (m ((c : Thread nD τ).loc main_arg9)) (ix1 q) := by
  have e : W9 m ρ c (Proc.devRef .tc main_v75) = shapeCast S1x40 (W8 m ρ c (Proc.devRef .tc main_arg9)) shapeCasts_S40_S1x40 := by
    show StableHlo.after hostOps3 (W8 m ρ c) (Proc.devRef .tc main_v75) = _
    simp only [hostOps3]
    after_results_simp
    rfl
  rw [e, keep_arg9_8_0]
  exact shapeCast_a_1a_apply _ _ 0 q

end Cert.KernelIdeal.Hand

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibDot.lean ====
/-
  The host's `dot_general` read at an index: for the dimension numbers that contract the left operand's second
  axis with the right operand's first (rows × inner times inner × columns, no batch axis), the product at the
  extended reals is, at `(i, j)`, the sum over the inner coordinate `k` of `lhs (i, k) · rhs (k, j)`,
  whatever the precision and the schedule key. Beside the same fact for a product into the zero accumulator this
  makes a row-tiled product and the whole product one function of the two matrices.
-/
import Idealize.ShloMosaic.PureOps.Ideal.Laws
import Idealize.ShloMosaic.Lib.ValueIdx

noncomputable section

namespace Idealize.ShloMosaic.ValueIdx

/-- The host's plain product, at `(i, j)`, as a sum over the inner coordinate. -/
theorem dotGeneral_plain_apply (M K N : ℕ) {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.Spec.lean ====
/-
  The dense part of one graph-convolution layer, index by index over the extended reals.

  `lin a w` is the plain matrix product: entry (r, q) is the sum over the inner coordinate k of a (r, k) · w (k, q).
  `biasRow a b` adds the one row of a [1, C] array to every row of a; `relu a` is the maximum with zero, entry by entry.
  A product whose rows are computed tile by tile and the host's one whole product are both `lin`: each entry is the
  same finite sum, so no law of the extended reals beyond reading a sum is needed and no finiteness.
-/
import Idealize.ShloMosaic.PureOps.Ideal.Laws
import Idealize.ShloMosaic.Lib.ValueIdx
import proofs.«138004_j8701603741741_1_alg».proof.Proof.LibMatmul
import proofs.«138004_j8701603741741_1_alg».proof.Proof.LibDot

noncomputable section

namespace Gcn

open Idealize.ShloMosaic Idealize.ShloMosaic.ValueIdx

/-- The plain matrix product, entry by entry. -/
def lin {R K N : ℕ} (a : FVec Ideal ⟨2, ![R, K]⟩ .f32) (w : FVec Ideal ⟨2, ![K, N]⟩ .f32) : FVec Ideal ⟨2, ![R, N]⟩ .f32 :=
  fun i => ∑ k : Fin K, a (ix2 (n0 := R) (n1 := K) (i 0) k) * w (ix2 (n0 := K) (n1 := N) k (i 1))

theorem lin_apply {R K N : ℕ} (a : FVec Ideal ⟨2, ![R, K]⟩ .f32) (w : FVec Ideal ⟨2, ![K, N]⟩ .f32) (r : Fin R) (q : Fin N) :
    lin a w (ix2 r q) = ∑ k : Fin K, a (ix2 r k) * w (ix2 k q) := rfl

/-- The host's whole product of plain dimension numbers is `lin`. -/
theorem dotGeneral_eq_lin {R K N : ℕ} (prec : Option ContractPrecision) (sched : HostSchedule)
    (a : FVec Ideal ⟨2, ![R, K]⟩ .f32) (w : FVec Ideal ⟨2, ![K, N]⟩ .f32) :
    FloatOps.dotGeneral (DotDims.plain R K N) prec sched a w = lin a w := by
  funext i
  obtain ⟨r, q, rfl⟩ : ∃ (r : Fin R) (q : Fin N), i = ix2 r q := ⟨i 0, i 1, eq_ix2 i⟩
  exact dotGeneral_plain_apply R K N prec sched a w r q

/-- A product into the zero accumulator, read at an entry, is `lin`'s sum. -/
theorem matmul_zero_apply {R K N : ℕ} (prec : Option ContractPrecision)
    (a : FVec Ideal ⟨2, ![R, K]⟩ .f32) (w : FVec Ideal ⟨2, ![K, N]⟩ .f32) (r : Fin R) (q : Fin N) :
    FloatOps.matmul (DotDims.plain R K N) prec a w (constant ⟨2, ![R, N]⟩ .f32 0x00000000#32) (ix2 r q) = lin a w (ix2 r q) :=
  matmul_plain_zero_apply R K N prec a w r q

/-- The one row of a [1, C] array added to every row. -/
def biasRow {R C : ℕ} (a : FVec Ideal ⟨2, ![R, C]⟩ .f32) (b : FVec Ideal ⟨2, ![1, C]⟩ .f32) : FVec Ideal ⟨2, ![R, C]⟩ .f32 :=
  fun i => a i + b (ix2 (n0 := 1) (n1 := C) 0 (i 1))

theorem biasRow_apply {R C : ℕ} (a : FVec Ideal ⟨2, ![R, C]⟩ .f32) (b : FVec Ideal ⟨2, ![1, C]⟩ .f32) (r : Fin R) (q : Fin C) :
    biasRow a b (ix2 r q) = a (ix2 r q) + b (ix2 0 q) := rfl

/-- The maximum with zero, entry by entry. -/
def relu {s : Shape} (a : FVec Ideal s .f32) : FVec Ideal s .f32 :=
  fun i => max (a i) (Ideal.ofBits .f32 0x00000000#32)

theorem relu_apply {s : Shape} (a : FVec Ideal s .f32) (i : s.Idx) : relu a i = max (a i) (Ideal.ofBits .f32 0x00000000#32) := rfl

/-- Two products agree at two entries when their rows and columns there agree term by term. -/
theorem lin_congr {R R' K N N' : ℕ} (a : FVec Ideal ⟨2, ![R, K]⟩ .f32) (w : FVec Ideal ⟨2, ![K, N]⟩ .f32)
    (a' : FVec Ideal ⟨2, ![R', K]⟩ .f32) (w' : FVec Ideal ⟨2, ![K, N']⟩ .f32)
    (i : (⟨2, ![R, N]⟩ : Shape).Idx) (i' : (⟨2, ![R', N']⟩ : Shape).Idx)
    (ha : ∀ k : Fin K, a (ix2 (n0 := R) (n1 := K) (i 0) k) = a' (ix2 (n0 := R') (n1 := K) (i' 0) k))
    (hw : ∀ k : Fin K, w (ix2 (n0 := K) (n1 := N) k (i 1)) = w' (ix2 (n0 := K) (n1 := N') k (i' 1))) :
    lin a w i = lin a' w' i' :=
  Finset.sum_congr rfl fun k _ => by rw [ha k, hw k]

/-- Two bias additions agree at two entries when the arrays agree there and the rows agree at the entries' columns. -/
theorem biasRow_congr {R R' C C' : ℕ} (a : FVec Ideal ⟨2, ![R, C]⟩ .f32) (b : FVec Ideal ⟨2, ![1, C]⟩ .f32)
    (a' : FVec Ideal ⟨2, ![R', C']⟩ .f32) (b' : FVec Ideal ⟨2, ![1, C']⟩ .f32)
    (i : (⟨2, ![R, C]⟩ : Shape).Idx) (i' : (⟨2, ![R', C']⟩ : Shape).Idx)
    (ha : a i = a' i') (hb : b (ix2 (n0 := 1) (n1 := C) 0 (i 1)) = b' (ix2 (n0 := 1) (n1 := C') 0 (i' 1))) :
    biasRow a b i = biasRow a' b' i' := by
  show a i + b _ = a' i' + b' _
  rw [ha, hb]

/-- relu respects equal entries. -/
theorem relu_congr {s s' : Shape} (a : FVec Ideal s .f32) (a' : FVec Ideal s' .f32) (i : s.Idx) (i' : s'.Idx)
    (ha : a i = a' i') : relu a i = relu a' i' := by
  show max (a i) _ = max (a' i') _
  rw [ha]

end Gcn

end
-- ==== Proof.Payload.lean ====
/-
  What each kernel body computes from its loaded tiles, at the extended reals, as one function of the tiles.

  A change of float format is the identity at the extended reals, a cast between equal shapes is the identity, and a
  [1, C] row broadcast over R rows reads the row at the column. So the first body is the plain product of its row tile
  with the weight; the middle two are the product of relu (tile + bias row) with the weight; the last one stores
  relu (tile + bias row) itself and the product of that with the classifier weight plus the classifier's bias row.
-/
import proofs.«138004_j8701603741741_1_alg».proof.Proof.Gen.KernelIdeal.Skeleton
import proofs.«138004_j8701603741741_1_alg».proof.Proof.Spec
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen Gcn

/-- relu (tile + bias row), as the bodies spell it: equal-shape casts, a row broadcast, a splat of zero. -/
theorem biasRelu_eq (x : FVec Ideal S5000x128 .f32) (b : FVec Ideal S1x128 .f32) :
    maximumf (addf (shapeCast S5000x128 x shapeCasts_S5000x128_S5000x128)
        (broadcastTo S5000x128 (shapeCast S1x128 b shapeCasts_S1x128_S1x128) broadcasts_S1x128_S5000x128))
      (broadcast S5000x128 (Scalar.ofBits (F := Ideal) .f32 0x00000000#32))
    = relu (biasRow x b) := by
  funext i
  obtain ⟨p, q, rfl⟩ : ∃ (p : Fin 5000) (q : Fin 128), i = ix2 p q := ⟨i 0, i 1, eq_ix2 i⟩
  rw [maximumf_apply, addf_apply, shapeCast_self, shapeCast_self, broadcastTo_1b_ab_apply]
  rfl

/-- The first body: the row tile times the weight. -/
theorem pay_linear (x : FVec Ideal S5000x128 .f32) (w : FVec Ideal S128x128 .f32) :
    k0_pay1 (F := Ideal) x w = lin x w := by
  funext i
  obtain ⟨p, q, rfl⟩ : ∃ (p : Fin 5000) (q : Fin 128), i = ix2 p q := ⟨i 0, i 1, eq_ix2 i⟩
  exact matmul_plain_zero_apply 5000 128 128 none x w p q

/-- The second body: relu (tile + bias row) times the weight. -/
theorem pay_hidden1 (x : FVec Ideal S5000x128 .f32) (b : FVec Ideal S1x128 .f32) (w : FVec Ideal S128x128 .f32) :
    k1_pay1 (F := Ideal) x b w = lin (relu (biasRow x b)) w := by
  funext i
  obtain ⟨p, q, rfl⟩ : ∃ (p : Fin 5000) (q : Fin 128), i = ix2 p q := ⟨i 0, i 1, eq_ix2 i⟩
  rw [← biasRelu_eq x b]
  exact matmul_plain_zero_apply 5000 128 128 none _ w p q

/-- The third body: the same as the second. -/
theorem pay_hidden2 (x : FVec Ideal S5000x128 .f32) (b : FVec Ideal S1x128 .f32) (w : FVec Ideal S128x128 .f32) :
    k2_pay1 (F := Ideal) x b w = lin (relu (biasRow x b)) w := by
  funext i
  obtain ⟨p, q, rfl⟩ : ∃ (p : Fin 5000) (q : Fin 128), i = ix2 p q := ⟨i 0, i 1, eq_ix2 i⟩
  rw [← biasRelu_eq x b]
  exact matmul_plain_zero_apply 5000 128 128 none _ w p q

/-- The last body's first store: relu (tile + bias row). -/
theorem pay_hidden3 (x : FVec Ideal S5000x128 .f32) (b : FVec Ideal S1x128 .f32) :
    k3_pay1 (F := Ideal) x b = relu (biasRow x b) :=
  biasRelu_eq x b

/-- The last body's second store: that times the classifier weight, plus the classifier's bias row. -/
theorem pay_logits (x : FVec Ideal S5000x128 .f32) (b : FVec Ideal S1x128 .f32) (w : FVec Ideal S128x40 .f32) (bc : FVec Ideal S1x40 .f32) :
    k3_pay2 (F := Ideal) x b w bc = biasRow (lin (relu (biasRow x b)) w) bc := by
  funext i
  obtain ⟨p, q, rfl⟩ : ∃ (p : Fin 5000) (q : Fin 40), i = ix2 p q := ⟨i 0, i 1, eq_ix2 i⟩
  unfold k3_pay2
  rw [addf_apply, shapeCast_self, broadcastTo_1b_ab_apply, pay_hidden3]
  exact congrArg (· + bc (ix2 0 q)) (matmul_plain_zero_apply 5000 128 40 none _ w p q)

end Cert.KernelIdeal.Hand

end
-- ==== Proof.Region0.lean ====
/-
  The first pallas_call as one function of the arrays it is entered with: its output array ends holding the plain
  product of the [50000, 128] operand with the [128, 128] weight.

  Grid point t stages rows 5000·t … 5000·t + 4999 of the operand and the whole weight, and writes back rows
  5000·t … 5000·t + 4999 of the result; entry (p, q) of that tile is the sum over k of operand (5000·t + p, k) · weight (k, q),
  which is entry (5000·t + p, q) of the whole product. Row r lies in the tile of point r / 5000, so the ten tiles cover the array.
-/
import proofs.«138004_j8701603741741_1_alg».proof.Proof.Gen.KernelIdeal.Frame
import proofs.«138004_j8701603741741_1_alg».proof.Proof.Payload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block (t, 0), the weight at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the arrays the call is entered with. -/
abbrev prod0 (c : Dev nD) : FVec Ideal S50000x128 .f32 :=
  lin (V c main_arg0 : FVec Ideal S50000x128 .f32) (V c main_arg2 : FVec Ideal S128x128 .f32)

/-- What point t writes back is tile t of the whole product. -/
theorem flushed0 (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_linear]
  obtain ⟨e0, e1, e2, e3, e4, e5⟩ := idx0 t
  funext j
  show lin (iblk0 V c 0 t) (iblk0 V c 1 t) ((win0 2).xinj (grid0.coords t) j)
    = lin (V c main_arg0 : FVec Ideal S50000x128 .f32) (V c main_arg2 : FVec Ideal S128x128 .f32) (((cfg0.win 2).blk t).view.emb j)
  simp only [lin]
  refine Finset.sum_congr rfl fun k _ => ?_
  refine congrArg₂ (· * ·) ?_ ?_
  · show V c main_arg0 (((cfg0.win 0).blk t).view.emb (ix2 (n0 := 5000) (n1 := 128) ⟨(j 0).val, (j 0).isLt⟩ k))
        = V c main_arg0 (ix2 (n0 := 50000) (n1 := 128) ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 (n0 := 128) (n1 := 128) k ⟨(j 1).val, (j 1).isLt⟩))
        = V c main_arg2 (ix2 (n0 := 128) (n1 := 128) k ((((cfg0.win 2).blk t).view.emb j) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point t's tile iff each coordinate is in the tile's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r is in the tile of point r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  refine ⟨t, flush0_2 t, ?_⟩
  rw [mem_blk0]
  obtain ⟨-, -, -, -, e4, e5⟩ := idx0 t
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the call: the whole product of the arrays it was entered with. -/
theorem region0 (c : Dev nD) : (dat0 V c).arrAt 2 cfg0.N = prod0 V c :=
  (dat0 V c).arrAt_eq_of_cover 2 (prod0 V c) (fun t _ => flushed0 V c t) cover0

end Cert.KernelIdeal.Hand

end
-- ==== Proof.Region1.lean ====
/-
  The second pallas_call as one function of the arrays it is entered with: its output array ends holding the plain
  product of relu (operand + bias row) with the [128, 128] weight.

  Grid point t stages rows 5000·t … 5000·t + 4999 of the operand, the one bias row and the whole weight, and writes back
  rows 5000·t … 5000·t + 4999 of the result; entry (p, q) of that tile is the sum over k of
  relu (operand (5000·t + p, k) + bias (0, k)) · weight (k, q): entry (5000·t + p, q) of the whole result. Row r lies in
  the tile of point r / 5000, so the ten tiles cover the array.
-/
import proofs.«138004_j8701603741741_1_alg».proof.Proof.Gen.KernelIdeal.Frame
import proofs.«138004_j8701603741741_1_alg».proof.Proof.Payload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand1

open Cert.KernelIdeal Cert.KernelIdeal.Gen Cert.KernelIdeal.Hand Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block (t, 0), the bias row and the weight at block (0, 0). -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole result of the arrays the call is entered with. -/
abbrev prod (c : Dev nD) : FVec Ideal S50000x128 .f32 :=
  lin (relu (biasRow (V c main_v43 : FVec Ideal S50000x128 .f32) (V c main_v44 : FVec Ideal S1x128 .f32))) (V c main_arg4 : FVec Ideal S128x128 .f32)

/-- What point t writes back is tile t of the whole result. -/
theorem flushed (c : Dev nD) (t : Fin cfg1.N) :
    (dat1 V c).flushed 3 t = ((cfg1.win 3).blk t).view.read (Elt Ideal) (prod V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  rw [pay_hidden1]
  obtain ⟨e0, e1, e2, e3, e4, e5, e6, e7⟩ := idx t
  funext j
  show lin (relu (biasRow (iblk1 V c 0 t) (iblk1 V c 1 t))) (iblk1 V c 2 t) ((win1 3).xinj (grid1.coords t) j)
    = lin (relu (biasRow (V c main_v43 : FVec Ideal S50000x128 .f32) (V c main_v44 : FVec Ideal S1x128 .f32))) (V c main_arg4 : FVec Ideal S128x128 .f32)
        (((cfg1.win 3).blk t).view.emb j)
  refine lin_congr _ _ _ _ _ _ (fun k => ?_) (fun k => ?_)
  · refine relu_congr _ _ _ _ (biasRow_congr _ _ _ _ _ _ ?_ ?_)
    · show V c main_v43 (((cfg1.win 0).blk t).view.emb (ix2 (n0 := 5000) (n1 := 128) ⟨(j 0).val, (j 0).isLt⟩ k))
          = V c main_v43 (ix2 (n0 := 50000) (n1 := 128) ((((cfg1.win 3).blk t).view.emb j) 0) k)
      refine congrArg (V c main_v43) (funext fun a => Fin.ext ?_)
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 128 + 1 * k.val = k.val; omega
    · show V c main_v44 (((cfg1.win 1).blk t).view.emb (ix2 (n0 := 1) (n1 := 128) 0 k))
          = V c main_v44 (ix2 (n0 := 1) (n1 := 128) 0 k)
      refine congrArg (V c main_v44) (funext fun a => Fin.ext ?_)
      match a with
      | ⟨0, _⟩ => show win1_1.index t (0 : Fin 2) * 1 + 1 * 0 = 0; omega
      | ⟨1, _⟩ => show win1_1.index t (1 : Fin 2) * 128 + 1 * k.val = k.val; omega
  · show V c main_arg4 (((cfg1.win 2).blk t).view.emb (ix2 (n0 := 128) (n1 := 128) k ⟨(j 1).val, (j 1).isLt⟩))
        = V c main_arg4 (ix2 (n0 := 128) (n1 := 128) k ((((cfg1.win 3).blk t).view.emb j) 1))
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega

/-- An index of the result array is in point t's tile iff each coordinate is in the tile's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Row r is in the tile of point r / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  refine ⟨t, flush1_3 t, ?_⟩
  rw [mem_blk]
  obtain ⟨-, -, -, -, -, -, e6, e7⟩ := idx t
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the call: the whole result of the arrays it was entered with. -/
theorem region (c : Dev nD) : (dat1 V c).arrAt 3 cfg1.N = prod V c :=
  (dat1 V c).arrAt_eq_of_cover 3 (prod V c) (fun t _ => flushed V c t) cover

end Cert.KernelIdeal.Hand1

end
-- ==== Proof.Region2.lean ====
/-
  The third pallas_call as one function of the arrays it is entered with: its output array ends holding the plain
  product of relu (operand + bias row) with the [128, 128] weight.

  Grid point t stages rows 5000·t … 5000·t + 4999 of the operand, the one bias row and the whole weight, and writes back
  rows 5000·t … 5000·t + 4999 of the result; entry (p, q) of that tile is the sum over k of
  relu (operand (5000·t + p, k) + bias (0, k)) · weight (k, q): entry (5000·t + p, q) of the whole result. Row r lies in
  the tile of point r / 5000, so the ten tiles cover the array.
-/
import proofs.«138004_j8701603741741_1_alg».proof.Proof.Gen.KernelIdeal.Frame
import proofs.«138004_j8701603741741_1_alg».proof.Proof.Payload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand2

open Cert.KernelIdeal Cert.KernelIdeal.Gen Cert.KernelIdeal.Hand Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block (t, 0), the bias row and the weight at block (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The whole result of the arrays the call is entered with. -/
abbrev prod (c : Dev nD) : FVec Ideal S50000x128 .f32 :=
  lin (relu (biasRow (V c main_v58 : FVec Ideal S50000x128 .f32) (V c main_v59 : FVec Ideal S1x128 .f32))) (V c main_arg6 : FVec Ideal S128x128 .f32)

/-- What point t writes back is tile t of the whole result. -/
theorem flushed (c : Dev nD) (t : Fin cfg2.N) :
    (dat2 V c).flushed 3 t = ((cfg2.win 3).blk t).view.read (Elt Ideal) (prod V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x128) hz]
  rw [pay_hidden2]
  obtain ⟨e0, e1, e2, e3, e4, e5, e6, e7⟩ := idx t
  funext j
  show lin (relu (biasRow (iblk2 V c 0 t) (iblk2 V c 1 t))) (iblk2 V c 2 t) ((win2 3).xinj (grid2.coords t) j)
    = lin (relu (biasRow (V c main_v58 : FVec Ideal S50000x128 .f32) (V c main_v59 : FVec Ideal S1x128 .f32))) (V c main_arg6 : FVec Ideal S128x128 .f32)
        (((cfg2.win 3).blk t).view.emb j)
  refine lin_congr _ _ _ _ _ _ (fun k => ?_) (fun k => ?_)
  · refine relu_congr _ _ _ _ (biasRow_congr _ _ _ _ _ _ ?_ ?_)
    · show V c main_v58 (((cfg2.win 0).blk t).view.emb (ix2 (n0 := 5000) (n1 := 128) ⟨(j 0).val, (j 0).isLt⟩ k))
          = V c main_v58 (ix2 (n0 := 50000) (n1 := 128) ((((cfg2.win 3).blk t).view.emb j) 0) k)
      refine congrArg (V c main_v58) (funext fun a => Fin.ext ?_)
      match a with
      | ⟨0, _⟩ => show win2_0.index t (0 : Fin 2) * 5000 + 1 * (j 0).val = win2_3.index t (0 : Fin 2) * 5000 + 1 * (j 0).val; omega
      | ⟨1, _⟩ => show win2_0.index t (1 : Fin 2) * 128 + 1 * k.val = k.val; omega
    · show V c main_v59 (((cfg2.win 1).blk t).view.emb (ix2 (n0 := 1) (n1 := 128) 0 k))
          = V c main_v59 (ix2 (n0 := 1) (n1 := 128) 0 k)
      refine congrArg (V c main_v59) (funext fun a => Fin.ext ?_)
      match a with
      | ⟨0, _⟩ => show win2_1.index t (0 : Fin 2) * 1 + 1 * 0 = 0; omega
      | ⟨1, _⟩ => show win2_1.index t (1 : Fin 2) * 128 + 1 * k.val = k.val; omega
  · show V c main_arg6 (((cfg2.win 2).blk t).view.emb (ix2 (n0 := 128) (n1 := 128) k ⟨(j 1).val, (j 1).isLt⟩))
        = V c main_arg6 (ix2 (n0 := 128) (n1 := 128) k ((((cfg2.win 3).blk t).view.emb j) 1))
    refine congrArg (V c main_arg6) (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_3.index t (1 : Fin 2) * 128 + 1 * (j 1).val; omega

/-- An index of the result array is in point t's tile iff each coordinate is in the tile's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v60).slice (win2_3.rect t)).set ↔ _
  rw [View.set_slice_whole, Rect.mem_set_unit]
  exact Iff.rfl

/-- Row r is in the tile of point r / 5000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  refine ⟨t, flush2_3 t, ?_⟩
  rw [mem_blk]
  obtain ⟨-, -, -, -, -, -, e6, e7⟩ := idx t
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array after the call: the whole result of the arrays it was entered with. -/
theorem region (c : Dev nD) : (dat2 V c).arrAt 3 cfg2.N = prod V c :=
  (dat2 V c).arrAt_eq_of_cover 3 (prod V c) (fun t _ => flushed V c t) cover

end Cert.KernelIdeal.Hand2

end
-- ==== Proof.Region3.lean ====
/-
  The last pallas_call as functions of the arrays it is entered with: its first output array ends holding
  relu (operand + bias row), its second the plain product of that with the [128, 40] classifier weight plus the
  classifier's bias row.

  Grid point t stages rows 5000·t … 5000·t + 4999 of the operand, the two bias rows and the whole weight, and writes back
  rows 5000·t … 5000·t + 4999 of both results; entry (p, q) of a tile is entry (5000·t + p, q) of the whole result. Row r lies
  in the tile of point r / 5000, so the ten tiles cover each array.
-/
import proofs.«138004_j8701603741741_1_alg».proof.Proof.Gen.KernelIdeal.Frame
import proofs.«138004_j8701603741741_1_alg».proof.Proof.Payload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand3

open Cert.KernelIdeal Cert.KernelIdeal.Gen Cert.KernelIdeal.Hand Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block (t, 0), the bias rows and the weight at block (0, 0). -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- The hidden activations of the arrays the call is entered with. -/
abbrev hidden (c : Dev nD) : FVec Ideal S50000x128 .f32 :=
  relu (biasRow (V c main_v73 : FVec Ideal S50000x128 .f32) (V c main_v74 : FVec Ideal S1x128 .f32))

/-- The logits of the arrays the call is entered with. -/
abbrev logits (c : Dev nD) : FVec Ideal S50000x40 .f32 :=
  biasRow (lin (hidden V c) (V c main_arg8 : FVec Ideal S128x40 .f32)) (V c main_v75 : FVec Ideal S1x40 .f32)

/-- What point t writes back to the first output is tile t of the hidden activations. -/
theorem flushed_h (c : Dev nD) (t : Fin cfg3.N) :
    (dat3 V c).flushed 4 t = ((cfg3.win 4).blk t).view.read (Elt Ideal) (hidden V c) := by
  show (cfg3.win 4).cut (grid3.coords t) ((dat3 V c).after 4 t) = _
  rw [after3_4]
  unfold out3_4
  rw [View.canon_unit_zero hz]
  simp only [View.ld_unit_zero (S := S5000x128) hz, View.ld_unit_zero (S := S1x128) hz]
  rw [pay_hidden3]
  obtain ⟨e0, e1, e2, e3, e4, e5, e6, e7, e8, e9, e10, e11⟩ := idx t
  funext j
  show relu (biasRow (iblk3 V c 0 t) (iblk3 V c 1 t)) ((win3 4).xinj (grid3.coords t) j)
    = relu (biasRow (V c main_v73 : FVec Ideal S50000x128 .f32) (V c main_v74 : FVec Ideal S1x128 .f32)) (((cfg3.win 4).blk t).view.emb j)
  refine relu_congr _ _ _ _ (biasRow_congr _ _ _ _ _ _ ?_ ?_)
  · show V c main_v73 (((cfg3.win 0).blk t).view.emb ((win3 4).xinj (grid3.coords t) j))
        = V c main_v73 (((cfg3.win 4).blk t).view.emb j)
    refine congrArg (V c main_v73) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  · show V c main_v74 (((cfg3.win 1).blk t).view.emb (ix2 (n0 := 1) (n1 := 128) 0 ⟨(j 1).val, (j 1).isLt⟩))
        = V c main_v74 (ix2 (n0 := 1) (n1 := 128) 0 ((((cfg3.win 4).blk t).view.emb j) 1))
    refine congrArg (V c main_v74) (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_4.index t (1 : Fin 2) * 128 + 1 * (j 1).val; omega

/-- What point t writes back to the second output is tile t of the logits. -/
theorem flushed_o (c : Dev nD) (t : Fin cfg3.N) :
    (dat3 V c).flushed 5 t = ((cfg3.win 5).blk t).view.read (Elt Ideal) (logits V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz, View.ld_unit_zero (S := S128x40) hz, View.ld_unit_zero (S := S1x40) hz]
  rw [pay_logits]
  obtain ⟨e0, e1, e2, e3, e4, e5, e6, e7, e8, e9, e10, e11⟩ := idx t
  funext j
  show biasRow (lin (relu (biasRow (iblk3 V c 0 t) (iblk3 V c 1 t))) (iblk3 V c 2 t)) (iblk3 V c 3 t) ((win3 5).xinj (grid3.coords t) j)
    = biasRow (lin (relu (biasRow (V c main_v73 : FVec Ideal S50000x128 .f32) (V c main_v74 : FVec Ideal S1x128 .f32))) (V c main_arg8 : FVec Ideal S128x40 .f32)) (V c main_v75 : FVec Ideal S1x40 .f32)
        (((cfg3.win 5).blk t).view.emb j)
  refine biasRow_congr _ _ _ _ _ _ (lin_congr _ _ _ _ _ _ (fun k => ?_) (fun k => ?_)) ?_
  · refine relu_congr _ _ _ _ (biasRow_congr _ _ _ _ _ _ ?_ ?_)
    · show V c main_v73 (((cfg3.win 0).blk t).view.emb (ix2 (n0 := 5000) (n1 := 128) ⟨(j 0).val, (j 0).isLt⟩ k))
          = V c main_v73 (ix2 (n0 := 50000) (n1 := 128) ((((cfg3.win 5).blk t).view.emb j) 0) k)
      refine congrArg (V c main_v73) (funext fun a => Fin.ext ?_)
      match a with
      | ⟨0, _⟩ => show win3_0.index t (0 : Fin 2) * 5000 + 1 * (j 0).val = win3_5.index t (0 : Fin 2) * 5000 + 1 * (j 0).val; omega
      | ⟨1, _⟩ => show win3_0.index t (1 : Fin 2) * 128 + 1 * k.val = k.val; omega
    · show V c main_v74 (((cfg3.win 1).blk t).view.emb (ix2 (n0 := 1) (n1 := 128) 0 k))
          = V c main_v74 (ix2 (n0 := 1) (n1 := 128) 0 k)
      refine congrArg (V c main_v74) (funext fun a => Fin.ext ?_)
      match a with
      | ⟨0, _⟩ => show win3_1.index t (0 : Fin 2) * 1 + 1 * 0 = 0; omega
      | ⟨1, _⟩ => show win3_1.index t (1 : Fin 2) * 128 + 1 * k.val = k.val; omega
  · show V c main_arg8 (((cfg3.win 2).blk t).view.emb (ix2 (n0 := 128) (n1 := 40) k ⟨(j 1).val, (j 1).isLt⟩))
        = V c main_arg8 (ix2 (n0 := 128) (n1 := 40) k ((((cfg3.win 5).blk t).view.emb j) 1))
    refine congrArg (V c main_arg8) (funext fun a => Fin.ext ?_)
    match a with
    | ⟨0, _⟩ => show win3_2.index t (0 : Fin 2) * 128 + 1 * k.val = k.val; omega
    | ⟨1, _⟩ => show win3_2.index t (1 : Fin 2) * 40 + 1 * (j 1).val = win3_5.index t (1 : Fin 2) * 40 + 1 * (j 1).val; omega
  · show V c main_v75 (((cfg3.win 3).blk t).view.emb (ix2 (n0 := 1) (n1 := 40) 0 ⟨(j 1).val, (j 1).isLt⟩))
        = V c main_v75 (ix2 (n0 := 1) (n1 := 40) 0 ((((cfg3.win 5).blk t).view.emb j) 1))
    refine congrArg (V c main_v75) (funext fun a => Fin.ext ?_)
    match a with
    | ⟨0, _⟩ => show win3_3.index t (0 : Fin 2) * 1 + 1 * 0 = 0; omega
    | ⟨1, _⟩ => show win3_3.index t (1 : Fin 2) * 40 + 1 * (j 1).val = win3_5.index t (1 : Fin 2) * 40 + 1 * (j 1).val; omega

/-- An index of the first output is in point t's tile iff each coordinate is in the tile's range on its axis. -/
theorem mem_blk_h (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v76_0).slice (win3_4.rect t)).set ↔ _
  rw [View.set_slice_whole, Rect.mem_set_unit]
  exact Iff.rfl

/-- The same for the second output. -/
theorem mem_blk_o (t : Fin cfg3.N) (i : S50000x40.Idx) :
    i ∈ ((cfg3.win 5).blk t).view.set ↔ ∀ a : Fin 2, win3_5.index t a * S5000x40.size a ≤ (i a).val ∧ (i a).val < win3_5.index t a * S5000x40.size a + S5000x40.size a := by
  show i ∈ ((View.whole main_v76_1).slice (win3_5.rect t)).set ↔ _
  rw [View.set_slice_whole, Rect.mem_set_unit]
  exact Iff.rfl

/-- Row r of the first output is in the tile of point r / 5000. -/
theorem cover_h (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  refine ⟨t, flush3_4 t, ?_⟩
  rw [mem_blk_h]
  obtain ⟨-, -, -, -, -, -, -, -, e8, e9, -, -⟩ := idx t
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- Row r of the second output is in the tile of point r / 5000. -/
theorem cover_o (i : S50000x40.Idx) : ∃ t : Fin cfg3.N, (cfg3.win 5).flush t = true ∧ i ∈ ((cfg3.win 5).blk t).view.set := by
  have hi0 : (i 0).val < 50000 := (i 0).isLt
  have hi1 : (i 1).val < 40 := (i 1).isLt
  have hN : cfg3.N = 10 := N_3
  obtain ⟨t, ht⟩ : ∃ t : Fin cfg3.N, t.val = (i 0).val / 5000 := ⟨⟨(i 0).val / 5000, by rw [hN]; omega⟩, rfl⟩
  refine ⟨t, flush3_5 t, ?_⟩
  rw [mem_blk_o]
  obtain ⟨-, -, -, -, -, -, -, -, -, -, e10, e11⟩ := idx t
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 40 ≤ (i 1).val ∧ (i 1).val < win3_5.index t (1 : Fin 2) * 40 + 40; omega

/-- The first output array after the call: the hidden activations of the arrays it was entered with. -/
theorem region_h (c : Dev nD) : (dat3 V c).arrAt 4 cfg3.N = hidden V c :=
  (dat3 V c).arrAt_eq_of_cover 4 (hidden V c) (fun t _ => flushed_h V c t) cover_h

/-- The second output array after the call: the logits of the arrays it was entered with. -/
theorem region_o (c : Dev nD) : (dat3 V c).arrAt 5 cfg3.N = logits V c :=
  (dat3 V c).arrAt_eq_of_cover 5 (logits V c) (fun t _ => flushed_o V c t) cover_o

end Cert.KernelIdeal.Hand3

end
-- ==== Proof.RefLayers.lean ====
/-
  The reference's dense stages read as the layer functions: each `dot_general` is the plain product `lin`; each bias
  add (the bias broadcast first to one row, then over all rows) followed by the maximum with a zero splat is
  relu of (aggregate + bias row); the classifier's bias add is the bias row added to the last product.
-/
import proofs.«138004_j8701603741741_1_alg».proof.Proof.RefRead
import proofs.«138004_j8701603741741_1_alg».proof.Proof.Spec

set_option maxRecDepth 16384

noncomputable section

namespace Cert.ReferenceIdeal.Hand

open Idealize.ShloMosaic Idealize.ShloMosaic.ValueIdx Cert.ReferenceIdeal Cert.ReferenceIdeal.ReadP Gcn

/-- The reference's whole product of this layer is `lin`. -/
theorem v30_eq (x0 : (⟨S50000x128, .f32⟩ : BufTy).Contents (Elt Ideal)) (x2 : (⟨S128x128, .f32⟩ : BufTy).Contents (Elt Ideal)) :
    val_main_v30 (F := Ideal) x0 x2 = lin x0 x2 := by
  unfold val_main_v30
  simp only [Host.dotGeneral]
  exact dotGeneral_eq_lin (R := 50000) (K := 128) (N := 128) _ _ _ x2

/-- The reference's bias add and relu of this layer, read at an entry: relu of the aggregate plus the bias row. -/
theorem v47_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (b : FVec Ideal S1x128 .f32)
    (hb : ∀ q : Fin 128, b (ix2 0 q) = x3 (ix1 q)) :
    val_main_v47 (F := Ideal) x0 x1 x2 x3 = relu (biasRow (val_main_v43 (F := Ideal) x0 x1 x2) b) := by
  funext i
  obtain ⟨r, q, rfl⟩ : ∃ (r : Fin 50000) (q : Fin 128), i = ix2 r q := ⟨i 0, i 1, eq_ix2 i⟩
  rw [val_main_v47_apply, val_main_v46_apply, val_main_v45_apply, val_main_v44_apply, val_main_call1_v0_apply, val_main_call1_cst_apply,
    relu_apply, biasRow_apply, hb q]
  have e : idx_main_v44 (idx_main_v45 (ix2 (n0 := 50000) (n1 := 128) r q)) = ix1 q :=
    funext fun a => Fin.ext (by match a with | ⟨0, _⟩ => rfl)
  rw [e]
  rfl

/-- The reference's whole product of this layer is `lin`. -/
theorem v48_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4 = lin (val_main_v47 (F := Ideal) x0 x1 x2 x3) x4 := by
  unfold val_main_v48
  simp only [Host.dotGeneral]
  exact dotGeneral_eq_lin (R := 50000) (K := 128) (N := 128) _ _ _ x4

/-- The reference's bias add and relu of this layer, read at an entry: relu of the aggregate plus the bias row. -/
theorem v65_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (b : FVec Ideal S1x128 .f32)
    (hb : ∀ q : Fin 128, b (ix2 0 q) = x5 (ix1 q)) :
    val_main_v65 (F := Ideal) x0 x1 x2 x3 x4 x5 = relu (biasRow (val_main_v61 (F := Ideal) x0 x1 x2 x3 x4) b) := by
  funext i
  obtain ⟨r, q, rfl⟩ : ∃ (r : Fin 50000) (q : Fin 128), i = ix2 r q := ⟨i 0, i 1, eq_ix2 i⟩
  rw [val_main_v65_apply, val_main_v64_apply, val_main_v63_apply, val_main_v62_apply, val_main_call2_v0_apply, val_main_call2_cst_apply,
    relu_apply, biasRow_apply, hb q]
  have e : idx_main_v62 (idx_main_v63 (ix2 (n0 := 50000) (n1 := 128) r q)) = ix1 q :=
    funext fun a => Fin.ext (by match a with | ⟨0, _⟩ => rfl)
  rw [e]
  rfl

/-- The reference's whole product of this layer is `lin`. -/
theorem v66_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v66 (F := Ideal) x0 x1 x2 x3 x4 x5 x6 = lin (val_main_v65 (F := Ideal) x0 x1 x2 x3 x4 x5) x6 := by
  unfold val_main_v66
  simp only [Host.dotGeneral]
  exact dotGeneral_eq_lin (R := 50000) (K := 128) (N := 128) _ _ _ x6

/-- The reference's bias add and relu of this layer, read at an entry: relu of the aggregate plus the bias row. -/
theorem v83_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (b : FVec Ideal S1x128 .f32)
    (hb : ∀ q : Fin 128, b (ix2 0 q) = x7 (ix1 q)) :
    val_main_v83 (F := Ideal) x0 x1 x2 x3 x4 x5 x6 x7 = relu (biasRow (val_main_v79 (F := Ideal) x0 x1 x2 x3 x4 x5 x6) b) := by
  funext i
  obtain ⟨r, q, rfl⟩ : ∃ (r : Fin 50000) (q : Fin 128), i = ix2 r q := ⟨i 0, i 1, eq_ix2 i⟩
  rw [val_main_v83_apply, val_main_v82_apply, val_main_v81_apply, val_main_v80_apply, val_main_call3_v0_apply, val_main_call3_cst_apply,
    relu_apply, biasRow_apply, hb q]
  have e : idx_main_v80 (idx_main_v81 (ix2 (n0 := 50000) (n1 := 128) r q)) = ix1 q :=
    funext fun a => Fin.ext (by match a with | ⟨0, _⟩ => rfl)
  rw [e]
  rfl

/-- The reference's whole product of this layer is `lin`. -/
theorem v84_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x40, .f32⟩ : BufTy).Contents (Elt Ideal)) :
    val_main_v84 (F := Ideal) x0 x1 x2 x3 x4 x5 x6 x7 x8 = lin (val_main_v83 (F := Ideal) x0 x1 x2 x3 x4 x5 x6 x7) x8 := by
  unfold val_main_v84
  simp only [Host.dotGeneral]
  exact dotGeneral_eq_lin (R := 50000) (K := 128) (N := 40) _ _ _ x8

/-- The reference's logits: the last product plus the classifier's bias row. -/
theorem v87_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) (bc : FVec Ideal S1x40 .f32)
    (hbc : ∀ q : Fin 40, bc (ix2 0 q) = x9 (ix1 q)) :
    val_main_v87 (F := Ideal) x0 x1 x2 x3 x4 x5 x6 x7 x8 x9 = biasRow (lin (val_main_v83 (F := Ideal) x0 x1 x2 x3 x4 x5 x6 x7) x8) bc := by
  funext i
  obtain ⟨r, q, rfl⟩ : ∃ (r : Fin 50000) (q : Fin 40), i = ix2 r q := ⟨i 0, i 1, eq_ix2 i⟩
  rw [val_main_v87_apply, val_main_v86_apply, val_main_v85_apply, v84_eq, biasRow_apply, hbc q]
  have e : idx_main_v85 (idx_main_v86 (ix2 (n0 := 50000) (n1 := 40) r q)) = ix1 q :=
    funext fun a => Fin.ext (by match a with | ⟨0, _⟩ => rfl)
  rw [e]
  rfl

end Cert.ReferenceIdeal.Hand

end
-- ==== Proof.Bridge.lean ====
/-
  The idealized kernel program's two results as the reference's own stage functions of the argument arrays.

  Walking @main: the first call's product of the node features with the first weight is the reference's first
  `dot_general`; each host stretch applies the reference's gather, scaling and scatter-add to it; each later call
  computes relu (aggregate + bias row) times the next weight, which is the reference's bias add, relu and `dot_general`
  of the same aggregate; the last call stores the third layer's activations and their product with the classifier
  weight plus the classifier's bias row — the reference's two results. No law of the extended reals is used beyond
  reading each matrix product as the same finite sum on both sides, so the inputs' finiteness is never needed.
-/
import proofs.«138004_j8701603741741_1_alg».proof.Proof.KernelRun
import proofs.«138004_j8701603741741_1_alg».proof.Proof.HostChain
import proofs.«138004_j8701603741741_1_alg».proof.Proof.Region0
import proofs.«138004_j8701603741741_1_alg».proof.Proof.Region1
import proofs.«138004_j8701603741741_1_alg».proof.Proof.Region2
import proofs.«138004_j8701603741741_1_alg».proof.Proof.Region3
import proofs.«138004_j8701603741741_1_alg».proof.Proof.RefLayers

set_option maxRecDepth 16384

noncomputable section

namespace Cert.KernelIdeal.Hand

open Cert.KernelIdeal Cert.KernelIdeal.Gen Cert.ReferenceIdeal.ReadP Gcn
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- After the first call: the node features times the first weight. -/
theorem layer1_product : W4 m ρ c (Proc.devRef .tc main_v30) = val_main_v30 (F := Ideal) (m ((c : Thread nD τ).loc main_arg0)) (m ((c : Thread nD τ).loc main_arg2)) := by
  rw [show W4 m ρ c (Proc.devRef .tc main_v30) = (dat0 (V3 m ρ) c).arrAt 2 cfg0.N from W4_arr m ρ c 2, region0 (V3 m ρ) c, Cert.ReferenceIdeal.Hand.v30_eq]
  show lin (W3 m ρ c (Proc.devRef .tc main_arg0)) (W3 m ρ c (Proc.devRef .tc main_arg2)) = _
  rw [keep_arg0_3_0, keep_arg2_3_0]

/-- After the second call: relu (first aggregate + first bias) times the second weight. -/
theorem layer2_product : W6 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [show W6 m ρ c (Proc.devRef .tc main_v45) = (dat1 (V5 m ρ) c).arrAt 3 cfg1.N from W6_arr m ρ c 3, Cert.KernelIdeal.Hand1.region (V5 m ρ) c]
  show lin (relu (biasRow (W5 m ρ c (Proc.devRef .tc main_v43)) (W5 m ρ c (Proc.devRef .tc main_v44)))) (W5 m ρ c (Proc.devRef .tc main_arg4)) = _
  rw [agg1 m ρ c (layer1_product m ρ c), keep_arg4_5_0, Cert.ReferenceIdeal.Hand.v48_eq, Cert.ReferenceIdeal.Hand.v47_eq _ _ _ _ (W5 m ρ c (Proc.devRef .tc main_v44)) (row1 m ρ c)]

/-- After the third call: relu (second aggregate + second bias) times the third weight. -/
theorem layer3_product : W8 m ρ c (Proc.devRef .tc main_v60) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [show W8 m ρ c (Proc.devRef .tc main_v60) = (dat2 (V7 m ρ) c).arrAt 3 cfg2.N from W8_arr m ρ c 3, Cert.KernelIdeal.Hand2.region (V7 m ρ) c]
  show lin (relu (biasRow (W7 m ρ c (Proc.devRef .tc main_v58)) (W7 m ρ c (Proc.devRef .tc main_v59)))) (W7 m ρ c (Proc.devRef .tc main_arg6)) = _
  rw [agg2 m ρ c (layer2_product m ρ c), keep_arg6_7_0, Cert.ReferenceIdeal.Hand.v66_eq, Cert.ReferenceIdeal.Hand.v65_eq _ _ _ _ _ _ (W7 m ρ c (Proc.devRef .tc main_v59)) (row2 m ρ c)]

/-- The second result: relu (third aggregate + third bias), the reference's hidden activations. -/
theorem hidden_eq : W10 m ρ c (Proc.devRef .tc main_v76_0) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W10 m ρ c (Proc.devRef .tc main_v76_0) = (dat3 (V9 m ρ) c).arrAt 4 cfg3.N from W10_arr m ρ c 4, Cert.KernelIdeal.Hand3.region_h (V9 m ρ) c]
  show relu (biasRow (W9 m ρ c (Proc.devRef .tc main_v73)) (W9 m ρ c (Proc.devRef .tc main_v74))) = _
  rw [agg3 m ρ c (layer3_product m ρ c), Cert.ReferenceIdeal.Hand.v83_eq _ _ _ _ _ _ _ _ (W9 m ρ c (Proc.devRef .tc main_v74)) (row3 m ρ c)]

/-- The first result: the hidden activations times the classifier weight plus the classifier's bias, the reference's logits. -/
theorem logits_eq : W10 m ρ c (Proc.devRef .tc main_v76_1) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W10 m ρ c (Proc.devRef .tc main_v76_1) = (dat3 (V9 m ρ) c).arrAt 5 cfg3.N from W10_arr m ρ c 5, Cert.KernelIdeal.Hand3.region_o (V9 m ρ) c]
  show biasRow (lin (relu (biasRow (W9 m ρ c (Proc.devRef .tc main_v73)) (W9 m ρ c (Proc.devRef .tc main_v74)))) (W9 m ρ c (Proc.devRef .tc main_arg8))) (W9 m ρ c (Proc.devRef .tc main_v75)) = _
  rw [agg3 m ρ c (layer3_product m ρ c), keep_arg8_9_0,
    Cert.ReferenceIdeal.Hand.v87_eq _ _ _ _ _ _ _ _ _ _ (W9 m ρ c (Proc.devRef .tc main_v75)) (rowc m ρ c),
    Cert.ReferenceIdeal.Hand.v83_eq _ _ _ _ _ _ _ _ (W9 m ρ c (Proc.devRef .tc main_v74)) (row3 m ρ c)]

/-- The idealized kernel program's run with its two results at the reference's stage functions of the arguments. -/
theorem run (ρ : Dev nD → PrngReg) : θ_run defs (onTc (τ := τ) (main (F := Ideal))) ⟨m, fun _ => 0, ρ⟩ (fun r => ∀ c : Dev nD,
      r.2.mem ((c.tc : Thread nD τ).loc main_v76_1) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v76_0) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v76_1 (by decide))).trans (logits_eq m ρ c),
     (h c _ (mem_uc main_v76_0 (by decide))).trans (hidden_eq m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c)⟩)
    (run_all (F := Ideal) m ρ)

end Cert.KernelIdeal.Hand

end
-- ==== Proof.lean ====
/-
  The certificate of the three-layer graph convolution network: the Pallas program (four tiled dense kernels with the
  gather / scatter-add aggregation on the host between them) against its jnp reference, over the extended reals.

  Both programs compute, from the same edge list, the same source and destination index arrays and edge norms, and
  then three times: a [50000, 128] × [128, 128] product, its rows gathered at the sources, scaled by the norms and
  summed into the destinations. The kernel program fuses each layer's bias add and relu into the NEXT dense kernel
  (relu (aggregate + bias) times the next weight, tile by tile over 5000-row tiles), where the reference adds the
  bias and takes the relu on the host and then forms one whole product; the last kernel also stores the activations
  and adds the classifier's bias. Entry by entry these are the same finite sums of the same products, so the two
  results agree on every input: the precondition (finite inputs) is not used by the value claim.

  The frames of the two kernel programs are the generated frame certificates; the reference's frame is its run with
  the results dropped; the idealization rewrote nothing, so `preserves` is trivial.
-/
import proofs.«138004_j8701603741741_1_alg».proof.Defs
import proofs.«138004_j8701603741741_1_alg».proof.Proof.Gen.Kernel
import proofs.«138004_j8701603741741_1_alg».proof.Proof.Gen.Kernel.Frame
import proofs.«138004_j8701603741741_1_alg».proof.Proof.Gen.KernelIdeal
import proofs.«138004_j8701603741741_1_alg».proof.Proof.Gen.KernelIdeal.Frame
import proofs.«138004_j8701603741741_1_alg».proof.Proof.Gen.ReferenceIdeal
import proofs.«138004_j8701603741741_1_alg».proof.Proof.Gen.Pre_finite_inputs
import proofs.«138004_j8701603741741_1_alg».proof.Proof.RefRun
import proofs.«138004_j8701603741741_1_alg».proof.Proof.RefRead
import proofs.«138004_j8701603741741_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the reference's stage functions of the (agreeing) arguments in their result buffers. -/
theorem algebraic : Cert.algebraic_KernelIdeal_ReferenceIdeal := by
  intro m ρ m' ρ' _ hagree
  refine ⟨fun c => Cert.ReferenceIdeal.ReadP.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.ReadP.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.run m ρ, ?_⟩
  refine (θ_run Cert.ReferenceIdeal.defs _ _).mono (fun _ h c => ?_) (Cert.ReferenceIdeal.ValueP.run (F := Ideal) m' ρ')
  obtain ⟨h87, h83, hargs⟩ := h c
  obtain ⟨a0, a1, a2, a3, a4, a5, a6, a7, a8, a9⟩ := hagree c
  refine ⟨h87.trans ?_, h83.trans ?_, hargs⟩
  · rw [Cert.ReferenceIdeal.ReadP.val_main_v87_eq, a0, a1, a2, a3, a4, a5, a6, a7, a8, a9]
  · rw [Cert.ReferenceIdeal.ReadP.val_main_v83_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
